-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x256 : Shape := ⟨2, ![128, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 34
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x128, .f32⟩
  | .hbm, ⟨15, _⟩ => ⟨S50000x128, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x128, .f32⟩
  | .hbm, ⟨15, _⟩ => ⟨S50000x128, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«107013_j12120397709394_2_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«107013_j12120397709394_2_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.LibHostDense.lean ====
/-
  A dense layer and a `relu` as a host program writes them, read at one entry over the extended reals.

  `x @ w + b` on the host: a `dot_general` with a plain product's dimension numbers (`[M, K] × [K, N] → [M, N]`), plus
  the bias vector broadcast first to one row (`[N] → [1, N]`, along axis 1) and then down the `M` rows.  Entry
  `(p, j)` is `(∑ₖ x[p, k] · w[k, j]) + b[j]`.  `relu`: the maximum with a broadcast scalar zero; entry `i` is the
  larger of `x[i]` and zero.  Stated for any extents, any record of those dimension numbers and abstract operands.
-/
import proofs.«107013_j12120397709394_2_alg».proof.Proof.LibPlainProduct
import Idealize.ShloMosaic.Lib.Pipeline.Value

noncomputable section

namespace Cert.HostDense

open Idealize.ShloMosaic Idealize.ShloMosaic.ValueIdx
open scoped BigOperators

variable {M K N : Nat} {D : DotDims ⟨2, ![M, K]⟩ ⟨2, ![K, N]⟩ ⟨2, ![M, N]⟩}

/-- A vector broadcast to one row and then down the rows, read at `(p, j)`: its entry `j`. -/
theorem bias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    broadcastInDim ⟨2, ![M, N]⟩ ![0, 1] h2 (broadcastInDim ⟨2, ![1, N]⟩ ![1] h1 b) (ix2 p j) = b (ix1 j) := by
  have hj := j.isLt
  refine (broadcastInDim_apply ![0, 1] h2 _ (ix2 p j) (ix2 0 j) fun a => ?_).trans
    (broadcastInDim_apply ![1] h1 b (ix2 0 j) (ix1 j) fun a => ?_)
  · match a with
    | ⟨0, _⟩ => show 0 = if (1 : Nat) = 1 then 0 else p.val; rw [if_pos rfl]
    | ⟨1, _⟩ =>
      show j.val = if N = 1 then 0 else j.val
      by_cases hn : N = 1
      · rw [if_pos hn]; omega
      · rw [if_neg hn]
  · match a with
    | ⟨0, _⟩ =>
      show j.val = if N = 1 then 0 else j.val
      by_cases hn : N = 1
      · rw [if_pos hn]; omega
      · rw [if_neg hn]

/-- The host's dense layer at entry `(p, j)`. -/
theorem dense_apply (hD : MatmulPlain.IsPlain D) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    addf (F := Ideal) (Host.dotGeneral D none x w)
        (broadcastInDim ⟨2, ![M, N]⟩ ![0, 1] h2 (broadcastInDim ⟨2, ![1, N]⟩ ![1] h1 b)) (ix2 p j)
      = (∑ k : Fin K, x (ix2 p k) * w (ix2 k j)) + b (ix1 j) := by
  show Host.dotGeneral (F := Ideal) D none x w (ix2 p j)
      + broadcastInDim ⟨2, ![M, N]⟩ ![0, 1] h2 (broadcastInDim ⟨2, ![1, N]⟩ ![1] h1 b) (ix2 p j) = _
  rw [bias_apply b h1 h2 p j]
  simp only [Host.dotGeneral]
  rw [MatmulPlain.dotGeneral_apply hD]

/-- The host's `relu` at an index. -/
theorem relu_apply {s : Shape} (x : FVec Ideal s .f32) (h : (⟨0, ![]⟩ : Shape).BroadcastsInDim s ![]) (i : s.Idx) :
    maximumf (F := Ideal) x (broadcastInDim s ![] h (constant (F := Ideal) ⟨0, ![]⟩ .f32 0x00000000#32)) i
      = max (x i) (Ideal.ofBits .f32 0x00000000#32) := by
  show max (x i) (broadcastInDim s ![] h (constant (F := Ideal) ⟨0, ![]⟩ .f32 0x00000000#32) i) = _
  rw [broadcastInDim_apply ![] h _ i ix0 fun a => a.elim0]
  rfl

end Cert.HostDense

end
-- ==== Proof.LibHostMean.lean ====
/-
  A per-row quantity carried back onto every entry of its row, as a host program writes it, and the row mean built
  from it.

  A vector of `a` entries broadcast to a one-column matrix (`[a] → [a, 1]`, along axis 0) holds entry `i` at
  `(i, 0)`; that column broadcast along its rows (`[a, 1] → [a, b]`) holds at `(i, j)` the column's entry `(i, 0)`.
  So `x / max(c, 1)[:, None]`, written with a broadcast scalar one, has at `(p, q)` the quotient of `x (p, q)` by the
  larger of `c p` and one.  Stated for any extents.
-/
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

namespace Cert.HostMean

open Idealize.ShloMosaic Idealize.ShloMosaic.ValueIdx

/-- A vector broadcast to a one-column matrix reads, at `(i, u)`, the vector at `i`. -/
theorem broadcastInDim_a_a1_apply {a : Nat} {α : Type} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun c => match c with
    | ⟨0, _⟩ => by
      show i.val = if a = 1 then 0 else i.val
      have := i.isLt
      split <;> omega

/-- A one-column matrix broadcast along its rows reads, at `(i, j)`, the column at `(i, 0)`. -/
theorem broadcastInDim_a1_ab_apply {a b : Nat} {α : Type} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) fun c => match c with
    | ⟨0, _⟩ => by
      show i.val = if a = 1 then 0 else i.val
      have := i.isLt
      split <;> omega
    | ⟨1, _⟩ => by
      show 0 = if (1 : Nat) = 1 then 0 else j.val
      rw [if_pos rfl]

/-- A scalar one broadcast to any shape is one at every index. -/
theorem ones_apply {s : Shape} (h : (⟨0, ![]⟩ : Shape).BroadcastsInDim s ![]) (i : s.Idx) :
    broadcastInDim s ![] h (constant (F := Ideal) ⟨0, ![]⟩ .f32 0x3F800000#32) i = (1 : EReal) := by
  rw [broadcastInDim_apply ![] h _ i ix0 fun a => a.elim0]
  exact Ideal.ofBits_one_f32

/-- A scalar zero broadcast to any shape is zero at every index. -/
theorem zeros_apply {s : Shape} (h : (⟨0, ![]⟩ : Shape).BroadcastsInDim s ![]) (i : s.Idx) :
    broadcastInDim s ![] h (constant (F := Ideal) ⟨0, ![]⟩ .f32 0x00000000#32) i = (0 : EReal) := by
  rw [broadcastInDim_apply ![] h _ i ix0 fun a => a.elim0]
  exact Ideal.ofBits_zero_f32

/-- The host's `x / max(c, 1)[:, None]` at `(p, q)`: `x (p, q)` divided by the larger of `c p` and one. -/
theorem divByCount_apply {M D : Nat} (x : FVec Ideal ⟨2, ![M, D]⟩ .f32) (c : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, D]⟩ ![0, 1]) (p : Fin M) (q : Fin D) :
    Host.divf (F := Ideal) x
        (broadcastInDim ⟨2, ![M, D]⟩ ![0, 1] h2 (broadcastInDim ⟨2, ![M, 1]⟩ ![0] h1
          (maximumf (F := Ideal) c (broadcastInDim ⟨1, ![M]⟩ ![] h0 (constant (F := Ideal) ⟨0, ![]⟩ .f32 0x3F800000#32)))))
        (ix2 p q)
      = Ideal.div (x (ix2 p q)) (max (c (ix1 p)) 1) := by
  show Ideal.div (x (ix2 p q)) (broadcastInDim ⟨2, ![M, D]⟩ ![0, 1] h2 (broadcastInDim ⟨2, ![M, 1]⟩ ![0] h1
      (maximumf (F := Ideal) c (broadcastInDim ⟨1, ![M]⟩ ![] h0 (constant (F := Ideal) ⟨0, ![]⟩ .f32 0x3F800000#32))))
      (ix2 p q)) = _
  rw [broadcastInDim_a1_ab_apply _ h2 p q, broadcastInDim_a_a1_apply _ h1 p (0 : Fin 1)]
  show Ideal.div (x (ix2 p q)) (max (c (ix1 p))
      (broadcastInDim ⟨1, ![M]⟩ ![] h0 (constant (F := Ideal) ⟨0, ![]⟩ .f32 0x3F800000#32) (ix1 p))) = _
  rw [ones_apply h0 (ix1 p)]

end Cert.HostMean

end
-- ==== Proof.LibGcnSelfLoopDense.lean ====
/-
  One graph-convolution layer's dense half as ONE function of four arrays, over the extended reals.

  Given the aggregated neighbour sum `agg` ([M, K]), the degree-normalised features `nrm` ([M, K]), the inverse square
  root of the degree kept as a column `inv` ([M, 1]) and the weights `w` ([K, N]), the layer first closes the pooled sum
  with the self loop, `pooled (p, k) = agg (p, k) + inv (p, 0) · nrm (p, k)`, then projects and rectifies:
  `layer (p, q) = max (∑ₖ pooled (p, k) · w (k, q)) 0`.

  Entry `(p, q)` depends on row `p` of `agg`, `nrm` and `inv` and on column `q` of `w` only, so the layer taken on a block
  of rows is a block of the layer of the whole arrays (`layer_entry_congr`).  A vector unit writes the layer with a column
  broadcast, a product into a zero block of operands rounded to a narrower format — the rounding is the identity on
  the extended reals — and a maximum with a splat zero (`kernel_form`); a host program writes it with a
  `broadcast_in_dim` of the column, a `dot_general` and a maximum with a broadcast scalar zero (`host_form`).  Both are
  `layer`.  No law of arithmetic is used: the two spellings are the same sums of the same products.
-/
import proofs.«107013_j12120397709394_2_alg».proof.Proof.LibProdEntries
import proofs.«107013_j12120397709394_2_alg».proof.Proof.LibColumnLayout
import proofs.«107013_j12120397709394_2_alg».proof.Proof.LibHostDense
import proofs.«107013_j12120397709394_2_alg».proof.Proof.LibHostMean

noncomputable section

namespace Cert.GcnDense

open Idealize.ShloMosaic Idealize.ShloMosaic.ValueIdx Idealize.ShloMosaic.MatmulPlain
open scoped BigOperators

variable {M M' K N : Nat}

/-- The pooled sum closed with the self loop: `agg + inv[:, None] · nrm`, entry by entry. -/
def selfLoop (agg nrm : FVec Ideal ⟨2, ![M, K]⟩ .f32) (inv : FVec Ideal ⟨2, ![M, 1]⟩ .f32) : FVec Ideal ⟨2, ![M, K]⟩ .f32 :=
  fun j => agg j + inv (ix2 (j 0) (0 : Fin 1)) * nrm j

/-- The layer: the self-loop sum times the weights, rectified. -/
def layer (agg nrm : FVec Ideal ⟨2, ![M, K]⟩ .f32) (inv : FVec Ideal ⟨2, ![M, 1]⟩ .f32)
    (w : FVec Ideal ⟨2, ![K, N]⟩ .f32) : FVec Ideal ⟨2, ![M, N]⟩ .f32 :=
  fun j => max (prod (selfLoop agg nrm inv) w j) (Ideal.ofBits .f32 0x00000000#32)

theorem selfLoop_apply (agg nrm : FVec Ideal ⟨2, ![M, K]⟩ .f32) (inv : FVec Ideal ⟨2, ![M, 1]⟩ .f32) (p : Fin M) (k : Fin K) :
    selfLoop agg nrm inv (ix2 p k) = agg (ix2 p k) + inv (ix2 p (0 : Fin 1)) * nrm (ix2 p k) := rfl

/-- An entry of the layer needs one row of the three row-indexed arrays and one column of the weights: if row `j 0` of
    `agg, nrm, inv` is row `j' 0` of `agg', nrm', inv'` (arrays of another row count) and the columns `j 1`, `j' 1` are the
    same column of `w`, the two layers agree at `j` and `j'`. -/
theorem layer_entry_congr (agg nrm : FVec Ideal ⟨2, ![M, K]⟩ .f32) (inv : FVec Ideal ⟨2, ![M, 1]⟩ .f32)
    (agg' nrm' : FVec Ideal ⟨2, ![M', K]⟩ .f32) (inv' : FVec Ideal ⟨2, ![M', 1]⟩ .f32)
    (w w' : FVec Ideal ⟨2, ![K, N]⟩ .f32)
    (j : (⟨2, ![M, N]⟩ : Shape).Idx) (j' : (⟨2, ![M', N]⟩ : Shape).Idx)
    (hagg : ∀ k : Fin K, agg (ix2 (j 0) k) = agg' (ix2 (j' 0) k))
    (hnrm : ∀ k : Fin K, nrm (ix2 (j 0) k) = nrm' (ix2 (j' 0) k))
    (hinv : inv (ix2 (j 0) (0 : Fin 1)) = inv' (ix2 (j' 0) (0 : Fin 1)))
    (hw : ∀ k : Fin K, w (ix2 k (j 1)) = w' (ix2 k (j' 1))) :
    layer agg nrm inv w j = layer agg' nrm' inv' w' j' := by
  unfold layer
  refine congrArg (max · (Ideal.ofBits .f32 0x00000000#32)) ?_
  refine prod_entry_congr _ _ _ _ j j' (fun k => ?_) hw
  show agg (ix2 (j 0) k) + inv (ix2 (j 0) (0 : Fin 1)) * nrm (ix2 (j 0) k)
      = agg' (ix2 (j' 0) k) + inv' (ix2 (j' 0) (0 : Fin 1)) * nrm' (ix2 (j' 0) k)
  rw [hagg k, hnrm k, hinv]

/-- The same with the two entries given by their coordinates: row `p` of the first three arrays is row `p'` of the
    primed ones, and the weights agree on column `q`. -/
theorem layer_rows_congr (agg nrm : FVec Ideal ⟨2, ![M, K]⟩ .f32) (inv : FVec Ideal ⟨2, ![M, 1]⟩ .f32)
    (agg' nrm' : FVec Ideal ⟨2, ![M', K]⟩ .f32) (inv' : FVec Ideal ⟨2, ![M', 1]⟩ .f32)
    (w w' : FVec Ideal ⟨2, ![K, N]⟩ .f32) (p : Fin M) (p' : Fin M') (q : Fin N)
    (hagg : ∀ k : Fin K, agg (ix2 p k) = agg' (ix2 p' k))
    (hnrm : ∀ k : Fin K, nrm (ix2 p k) = nrm' (ix2 p' k))
    (hinv : inv (ix2 p (0 : Fin 1)) = inv' (ix2 p' (0 : Fin 1)))
    (hw : ∀ k : Fin K, w (ix2 k q) = w' (ix2 k q)) :
    layer agg nrm inv w (ix2 p q) = layer agg' nrm' inv' w' (ix2 p' q) :=
  layer_entry_congr agg nrm inv agg' nrm' inv' w w' (ix2 p q) (ix2 p' q) hagg hnrm hinv hw

/-- The self-loop sum as a vector unit writes it: the column broadcast along its rows, times `nrm`, added to `agg`. -/
theorem selfLoop_of_broadcastTo (agg nrm : FVec Ideal ⟨2, ![M, K]⟩ .f32) (inv : FVec Ideal ⟨2, ![M, 1]⟩ .f32)
    (hb : (⟨2, ![M, 1]⟩ : Shape).Broadcasts ⟨2, ![M, K]⟩) :
    addf (F := Ideal) agg (mulf (F := Ideal) (broadcastTo ⟨2, ![M, K]⟩ inv hb) nrm) = selfLoop agg nrm inv := by
  funext j
  obtain ⟨p, k, rfl⟩ : ∃ (p : Fin M) (k : Fin K), j = ix2 p k := ⟨j 0, j 1, eq_ix2 j⟩
  show agg (ix2 p k) + broadcastTo ⟨2, ![M, K]⟩ inv hb (ix2 p k) * nrm (ix2 p k) = _
  rw [Cert.ColumnLayout.broadcastTo_a1_ab_apply inv hb p k]
  rfl

/-- The self-loop sum as a host program writes it: the column `broadcast_in_dim`'ed along its rows. -/
theorem selfLoop_of_broadcastInDim (agg nrm : FVec Ideal ⟨2, ![M, K]⟩ .f32) (inv : FVec Ideal ⟨2, ![M, 1]⟩ .f32)
    (hb : (⟨2, ![M, 1]⟩ : Shape).BroadcastsInDim ⟨2, ![M, K]⟩ ![0, 1]) :
    addf (F := Ideal) agg (mulf (F := Ideal) (broadcastInDim ⟨2, ![M, K]⟩ ![0, 1] hb inv) nrm) = selfLoop agg nrm inv := by
  funext j
  obtain ⟨p, k, rfl⟩ : ∃ (p : Fin M) (k : Fin K), j = ix2 p k := ⟨j 0, j 1, eq_ix2 j⟩
  show agg (ix2 p k) + broadcastInDim ⟨2, ![M, K]⟩ ![0, 1] hb inv (ix2 p k) * nrm (ix2 p k) = _
  rw [Cert.HostMean.broadcastInDim_a1_ab_apply inv hb p k]
  rfl

/-- A vector unit's spelling of the layer: the three row-indexed blocks shape-cast onto themselves, the column
    broadcast, the self-loop sum and the weights each rounded to a narrower format, a plain product into the zero
    block, the maximum with a splat zero. -/
theorem kernel_form {D : DotDims ⟨2, ![M, K]⟩ ⟨2, ![K, N]⟩ ⟨2, ![M, N]⟩} (hD : IsPlain D)
    (x0 x1 : FVec Ideal ⟨2, ![M, K]⟩ .f32) (x2 : FVec Ideal ⟨2, ![M, 1]⟩ .f32) (x3 : FVec Ideal ⟨2, ![K, N]⟩ .f32)
    (hc : (⟨2, ![M, K]⟩ : Shape).ShapeCasts ⟨2, ![M, K]⟩) (hc1 : (⟨2, ![M, 1]⟩ : Shape).ShapeCasts ⟨2, ![M, 1]⟩)
    (hb : (⟨2, ![M, 1]⟩ : Shape).Broadcasts ⟨2, ![M, K]⟩) {ψ : FTy} (hψ : ψ.bits < FTy.f32.bits) :
    maximumf (F := Ideal)
        (matmul (F := Ideal) D none
          (truncf ψ (addf (F := Ideal) (shapeCast ⟨2, ![M, K]⟩ x0 hc)
            (mulf (F := Ideal) (broadcastTo ⟨2, ![M, K]⟩ (shapeCast ⟨2, ![M, 1]⟩ x2 hc1) hb) (shapeCast ⟨2, ![M, K]⟩ x1 hc))) hψ)
          (truncf ψ x3 hψ) (constant (F := Ideal) ⟨2, ![M, N]⟩ .f32 0x00000000#32))
        (broadcast ⟨2, ![M, N]⟩ (Scalar.ofBits (F := Ideal) .f32 0x00000000#32))
      = layer x0 x1 x2 x3 := by
  rw [shapeCast_self x0 hc, shapeCast_self x1 hc, shapeCast_self x2 hc1, selfLoop_of_broadcastTo x0 x1 x2 hb]
  funext j
  show max (FloatOps.matmul D none (truncf ψ (selfLoop x0 x1 x2) hψ) (truncf ψ x3 hψ)
      (constant (F := Ideal) ⟨2, ![M, N]⟩ .f32 0x00000000#32) j) (Ideal.ofBits .f32 0x00000000#32) = _
  rw [matmul_zero_eq_prod hD none]
  rfl

/-- A host program's spelling of the layer: the column `broadcast_in_dim`'ed along its rows, a `dot_general` with a
    plain product's dimension numbers, the maximum with a broadcast scalar zero. -/
theorem host_form {D : DotDims ⟨2, ![M, K]⟩ ⟨2, ![K, N]⟩ ⟨2, ![M, N]⟩} (hD : IsPlain D)
    (agg nrm : FVec Ideal ⟨2, ![M, K]⟩ .f32) (inv : FVec Ideal ⟨2, ![M, 1]⟩ .f32) (w : FVec Ideal ⟨2, ![K, N]⟩ .f32)
    (hb : (⟨2, ![M, 1]⟩ : Shape).BroadcastsInDim ⟨2, ![M, K]⟩ ![0, 1])
    (h0 : (⟨0, ![]⟩ : Shape).BroadcastsInDim ⟨2, ![M, N]⟩ ![]) :
    maximumf (F := Ideal)
        (Host.dotGeneral (F := Ideal) D none
          (addf (F := Ideal) agg (mulf (F := Ideal) (broadcastInDim ⟨2, ![M, K]⟩ ![0, 1] hb inv) nrm)) w)
        (broadcastInDim ⟨2, ![M, N]⟩ ![] h0 (constant (F := Ideal) ⟨0, ![]⟩ .f32 0x00000000#32))
      = layer agg nrm inv w := by
  rw [selfLoop_of_broadcastInDim agg nrm inv hb]
  funext j
  rw [Cert.HostDense.relu_apply _ h0 j]
  simp only [Host.dotGeneral]
  rw [dotGeneral_eq_prod hD]
  rfl

end Cert.GcnDense

end
-- ==== Proof.KernelValue.lean ====
/-
  What the kernel's result array holds after the run, as one function of the arrays the region finds.

  The region's grid has 25 points; point `t` reads rows `2000·t … 2000·t + 1999` of the aggregated neighbour sum, of the
  normalised features and of the inverse-square-root-degree column, reads the whole weight array, and writes the same
  rows of the result.  The body's one store holds the layer (`Cert.GcnDense.layer`) of the four blocks it loaded.  Since
  an entry of the layer needs only its own row of the three row-indexed arrays, the layer of a block of rows is that block
  of the layer of the whole arrays; the 25 blocks of rows cover the result, so the result IS the layer of the whole arrays.
-/
import proofs.«107013_j12120397709394_2_alg».proof.Proof.Gen.KernelIdeal.Value
import proofs.«107013_j12120397709394_2_alg».proof.Proof.LibGcnSelfLoopDense

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.Pipeline (Dat)
open Idealize.ShloMosaic.ValueIdx Cert.GcnDense

variable (m : (ℓ : Loc nD τ sig) → Buf (Elt Ideal) ℓ) (ρ : Dev nD → PrngReg)

theorem zeros : (![0, 0] : Fin 2 → Nat) = fun _ => 0 := funext fun a => by fin_cases a <;> rfl

/-- The body's product carries the dimension numbers of a plain matrix product. -/
theorem plain : MatmulPlain.IsPlain (M := 2000) (K := 128) (N := 256) dot_S2000x128_S128x256_S2000x256_1_0_0_1_n_n :=
  ⟨rfl, rfl, rfl, rfl, rfl, rfl⟩

/-- The body's one stored value is the layer of the four loaded blocks. -/
theorem payload_eq (x0 x1 : Vec Ideal S2000x128 .f32) (x2 : Vec Ideal S2000x1 .f32) (x3 : Vec Ideal S128x256 .f32) :
    k0_pay1 x0 x1 x2 x3 = layer (M := 2000) (K := 128) (N := 256) x0 x1 x2 x3 :=
  kernel_form plain x0 x1 x2 x3 _ _ _ _

/-- The printed index maps over the 25 points: the three row-indexed inputs move with the result's block along the
    rows, every block starts at column 0, the weights' block never moves, and the result's row block index is at most 24. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = 0
    ∧ win0_4.index t (1 : Fin 2) = 0
    ∧ win0_4.index t (0 : Fin 2) ≤ 24 :=
  (by decide +kernel : ∀ t : Fin grid0.N, _)

/-- Every block of rows is some point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-- The array row that row `p` of point `t`'s blocks is. -/
def rowOf (t : Fin cfg0.N) (p : Fin 2000) : Fin 50000 :=
  ⟨win0_4.index t (0 : Fin 2) * 2000 + p.val, by
    have h := (idx_facts t).2.2.2.2.2.2.2.2.2
    have hp := p.isLt
    omega⟩

/-! The block reads, for ANY contents of the staged arrays: an entry of point `t`'s block of a row-indexed array is the
    entry of the array in row `rowOf t p`; the weights' block is the whole weight array. -/

/-- Row `p` of point `t`'s block of the first window's array is row `rowOf t p` of the array. -/
theorem read_agg (A : (⟨S50000x128, .f32⟩ : BufTy).Contents (Elt Ideal)) (t : Fin cfg0.N) (p : Fin 2000) (k : Fin 128) :
    ((cfg0.win 0).blk t).view.read (Elt Ideal) A (ix2 p k) = A (ix2 (rowOf t p) k) := by
  show A (((cfg0.win 0).blk t).view.emb (ix2 p k)) = A (ix2 (rowOf t p) k)
  refine congrArg A ?_
  obtain ⟨e0, e1, -⟩ := idx_facts t
  funext a; apply Fin.ext
  match a with
  | ⟨0, _⟩ => show win0_0.index t (0 : Fin 2) * 2000 + 1 * p.val = win0_4.index t (0 : Fin 2) * 2000 + p.val; omega
  | ⟨1, _⟩ => show win0_0.index t (1 : Fin 2) * 128 + 1 * k.val = k.val; omega

/-- The same for the second window's array. -/
theorem read_nrm (A : (⟨S50000x128, .f32⟩ : BufTy).Contents (Elt Ideal)) (t : Fin cfg0.N) (p : Fin 2000) (k : Fin 128) :
    ((cfg0.win 1).blk t).view.read (Elt Ideal) A (ix2 p k) = A (ix2 (rowOf t p) k) := by
  show A (((cfg0.win 1).blk t).view.emb (ix2 p k)) = A (ix2 (rowOf t p) k)
  refine congrArg A ?_
  obtain ⟨-, -, e0, e1, -⟩ := idx_facts t
  funext a; apply Fin.ext
  match a with
  | ⟨0, _⟩ => show win0_1.index t (0 : Fin 2) * 2000 + 1 * p.val = win0_4.index t (0 : Fin 2) * 2000 + p.val; omega
  | ⟨1, _⟩ => show win0_1.index t (1 : Fin 2) * 128 + 1 * k.val = k.val; omega

/-- The same for the third window's one-column array. -/
theorem read_inv (A : (⟨S50000x1, .f32⟩ : BufTy).Contents (Elt Ideal)) (t : Fin cfg0.N) (p : Fin 2000) :
    ((cfg0.win 2).blk t).view.read (Elt Ideal) A (ix2 p (0 : Fin 1)) = A (ix2 (rowOf t p) (0 : Fin 1)) := by
  show A (((cfg0.win 2).blk t).view.emb (ix2 p (0 : Fin 1))) = A (ix2 (rowOf t p) (0 : Fin 1))
  refine congrArg A ?_
  obtain ⟨-, -, -, -, e0, e1, -⟩ := idx_facts t
  funext a; apply Fin.ext
  match a with
  | ⟨0, _⟩ => show win0_2.index t (0 : Fin 2) * 2000 + 1 * p.val = win0_4.index t (0 : Fin 2) * 2000 + p.val; omega
  | ⟨1, _⟩ => show win0_2.index t (1 : Fin 2) * 1 + 1 * 0 = 0; omega

/-- The weights' block is the whole weight array at every point. -/
theorem read_w (A : (⟨S128x256, .f32⟩ : BufTy).Contents (Elt Ideal)) (t : Fin cfg0.N) (k : Fin 128) (q : Fin 256) :
    ((cfg0.win 3).blk t).view.read (Elt Ideal) A (ix2 k q) = A (ix2 k q) := by
  show A (((cfg0.win 3).blk t).view.emb (ix2 k q)) = A (ix2 k q)
  refine congrArg A ?_
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 256 + 1 * q.val = q.val; omega

/-- Entry `(p, q)` of point `t`'s result block sits at `(rowOf t p, q)` of the result array. -/
theorem emb_out (t : Fin cfg0.N) (p : Fin 2000) (q : Fin 256) :
    ((cfg0.win 4).blk t).view.emb (ix2 p q) = ix2 (rowOf t p) q := by
  obtain ⟨-, -, -, -, -, -, -, -, e1, -⟩ := idx_facts t
  funext a; apply Fin.ext
  match a with
  | ⟨0, _⟩ => show win0_4.index t (0 : Fin 2) * 2000 + 1 * p.val = win0_4.index t (0 : Fin 2) * 2000 + p.val; omega
  | ⟨1, _⟩ => show win0_4.index t (1 : Fin 2) * 256 + 1 * q.val = q.val; omega

/-- The layer of point `t`'s four blocks is point `t`'s block of the layer of the whole arrays, whatever the arrays hold:
    an entry of the layer needs only its own row of the three row-indexed arrays. -/
theorem layer_block (A0 A1 : (⟨S50000x128, .f32⟩ : BufTy).Contents (Elt Ideal)) (A2 : (⟨S50000x1, .f32⟩ : BufTy).Contents (Elt Ideal)) (A3 : (⟨S128x256, .f32⟩ : BufTy).Contents (Elt Ideal)) (t : Fin cfg0.N) :
    (layer (M := 2000) (K := 128) (N := 256) (((cfg0.win 0).blk t).view.read (Elt Ideal) A0) (((cfg0.win 1).blk t).view.read (Elt Ideal) A1) (((cfg0.win 2).blk t).view.read (Elt Ideal) A2) (((cfg0.win 3).blk t).view.read (Elt Ideal) A3)
        : S2000x256.Idx → EReal)
      = ((cfg0.win 4).blk t).view.read (Elt Ideal) (layer (M := 50000) (K := 128) (N := 256) A0 A1 A2 A3) := by
  funext j
  obtain ⟨p, q, rfl⟩ : ∃ (p : Fin 2000) (q : Fin 256), j = ix2 p q := ⟨j 0, j 1, eq_ix2 j⟩
  show _ = layer (M := 50000) (K := 128) (N := 256) A0 A1 A2 A3 (((cfg0.win 4).blk t).view.emb (ix2 p q))
  rw [emb_out t p q]
  exact layer_rows_congr (M := 2000) (M' := 50000) (K := 128) (N := 256)
    (((cfg0.win 0).blk t).view.read (Elt Ideal) A0) (((cfg0.win 1).blk t).view.read (Elt Ideal) A1) (((cfg0.win 2).blk t).view.read (Elt Ideal) A2) A0 A1 A2 (((cfg0.win 3).blk t).view.read (Elt Ideal) A3) A3 p (rowOf t p) q
    (fun k => read_agg A0 t p k) (fun k => read_nrm A1 t p k) (read_inv A2 t p) (fun k => read_w A3 t k q)

/-- What point `t` writes back is block `t` of the layer of the whole arrays as the region finds them. -/
theorem flushed_eq (c : Dev nD) (t : Fin cfg0.N) :
    (dats m 0 c).flushed 4 t = ((cfg0.win 4).blk t).view.read (Elt Ideal)
      (layer (M := 50000) (K := 128) (N := 256) (V m c (Pipeline.arrRef spec0 0)) (V m c (Pipeline.arrRef spec0 1)) (V m c (Pipeline.arrRef spec0 2)) (V m c (Pipeline.arrRef spec0 3))) := by
  rw [Value.flushed4]
  unfold out0_4
  rw [View.canon_unit_zero zeros]
  simp only [View.ld_unit_zero (S := S2000x128) zeros, View.ld_unit_zero (S := S2000x1) zeros,
    View.ld_unit_zero (S := S128x256) zeros]
  rw [payload_eq]
  unfold iblk
  exact layer_block (V m c (Pipeline.arrRef spec0 0)) (V m c (Pipeline.arrRef spec0 1)) (V m c (Pipeline.arrRef spec0 2)) (V m c (Pipeline.arrRef spec0 3)) t

/-- An index of the result array is in point `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v23).slice (win0_4.rect t)).set ↔ _
  rw [View.set_slice_whole, Rect.mem_set_unit]
  exact Iff.rfl

/-- Every index of the result array lies in the block of the point that holds its row: row `r` is in block `r / 2000`. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- The result array after the run is the layer of the whole arrays as the region finds them. -/
theorem final (c : Dev nD) :
    (dats m 0 c).arrAt 4 cfg0.N
      = layer (M := 50000) (K := 128) (N := 256) (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) cover

end Cert.KernelIdeal.GcnValue

end
-- ==== Proof.KernelPrefix.lean ====
/-
  The host operations the program runs before its one region, as functions of the argument arrays, and what the three
  arrays they leave for the region hold.

  From the edge list (rows `a1`, columns `a2`, values `a3`) and the features `a0`: the in-degree of every node, a
  scatter-add of the edge values by row plus one for the self loop, and its inverse square root (`invDeg`); that
  vector kept as a column (`invCol`); the features scaled row by row by it (`normalized`); and the aggregated neighbour
  sum (`aggregated`): the normalised rows gathered by edge column, scaled by the edge values, scatter-added by edge row.
  The kernel's program and the reference apply these same operations to the same arguments, so the three arrays are the
  same on both sides whatever the arguments hold.  `gcn` is the whole network layer: the dense layer of `Cert.GcnDense`
  on them.
-/
import proofs.«107013_j12120397709394_2_alg».proof.Proof.Gen.KernelIdeal.Frame
import proofs.«107013_j12120397709394_2_alg».proof.Proof.LibGcnSelfLoopDense
import Idealize.ShloMosaic.Lib.StableHlo.Run

noncomputable section

namespace Cert.KernelIdeal.GcnValue

open Cert.KernelIdeal Cert.KernelIdeal.Gen Idealize.ShloMosaic Idealize.ShloMosaic.TcCoe Idealize.SL.Sem
open Idealize.ShloMosaic.StableHlo

section
variable {F : FTy → Type} [FloatOps F]

/-- The inverse square root of every node's in-degree, the self loop counted. -/
def invDeg (a1 : (⟨S800000, .i32⟩ : BufTy).Contents (Elt F)) (a3 : (⟨S800000, .f32⟩ : BufTy).Contents (Elt F)) : (⟨S50000, .f32⟩ : BufTy).Contents (Elt F) :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 a1) a3) (broadcastInDim S50000 ![] bcast_S_S50000 (constant S_ .f32 0x3F800000#32)))

/-- That vector as a one-column array. -/
def invCol (a1 : (⟨S800000, .i32⟩ : BufTy).Contents (Elt F)) (a3 : (⟨S800000, .f32⟩ : BufTy).Contents (Elt F)) : (⟨S50000x1, .f32⟩ : BufTy).Contents (Elt F) :=
  broadcastInDim S50000x1 ![0] bcast_S50000_S50000x1_0 (invDeg a1 a3)

/-- The features, each row scaled by its node's inverse square root degree. -/
def normalized (a0 : (⟨S50000x128, .f32⟩ : BufTy).Contents (Elt F)) (a1 : (⟨S800000, .i32⟩ : BufTy).Contents (Elt F)) (a3 : (⟨S800000, .f32⟩ : BufTy).Contents (Elt F)) : (⟨S50000x128, .f32⟩ : BufTy).Contents (Elt F) :=
  mulf (broadcastInDim S50000x128 ![0, 1] bcast_S50000x1_S50000x128_0_1 (invCol a1 a3)) a0

/-- The aggregated neighbour sum: for every edge the normalised row of its column node times the edge value, added
    into the row of its row node. -/
def aggregated (a0 : (⟨S50000x128, .f32⟩ : BufTy).Contents (Elt F)) (a1 a2 : (⟨S800000, .i32⟩ : BufTy).Contents (Elt F)) (a3 : (⟨S800000, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 a1) (mulf (broadcastInDim S800000x128 ![0, 1] bcast_S800000x1_S800000x128_0_1 (broadcastInDim S800000x1 ![0] bcast_S800000_S800000x1_0 a3)) (Host.gather gather_S50000x128_S800000x1_S800000x128_1_0_n_n_0_1_1128 (normalized a0 a1 a3) (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2))))

end

/-- The whole layer over the extended reals: the dense layer on the aggregated sum, the normalised features, the
    inverse-square-root-degree column and the weights. -/
def gcn (a0 : (⟨S50000x128, .f32⟩ : BufTy).Contents (Elt Ideal)) (a1 a2 : (⟨S800000, .i32⟩ : BufTy).Contents (Elt Ideal))
    (a3 : (⟨S800000, .f32⟩ : BufTy).Contents (Elt Ideal)) (a4 : (⟨S128x256, .f32⟩ : BufTy).Contents (Elt Ideal)) :
    FVec Ideal ⟨2, ![50000, 256]⟩ .f32 :=
  Cert.GcnDense.layer (M := 50000) (K := 128) (N := 256)
    (aggregated (F := Ideal) a0 a1 a2 a3) (normalized (F := Ideal) a0 a1 a3) (invCol (F := Ideal) a1 a3) a4

variable (m : (ℓ : Loc nD τ sig) → Buf (Elt Ideal) ℓ)

set_option maxHeartbeats 2000000 in
/-- The region finds the aggregated neighbour sum in the array its first window stages. -/
theorem V_agg (c : Dev nD) :
    (V m c main_v21 : (⟨S50000x128, .f32⟩ : BufTy).Contents (Elt Ideal))
      = aggregated (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp <;> rfl

set_option maxHeartbeats 2000000 in
/-- It finds the normalised features in the array its second window stages. -/
theorem V_nrm (c : Dev nD) :
    (V m c main_v8 : (⟨S50000x128, .f32⟩ : BufTy).Contents (Elt Ideal))
      = normalized (F := Ideal) (m ((c : Thread nD τ).loc main_arg0)) (m ((c : Thread nD τ).loc main_arg1)) (m ((c : Thread nD τ).loc main_arg3)) := by
  dsimp only [Gen.V, Gen.hostOps0]
  after_results_simp <;> rfl

set_option maxHeartbeats 2000000 in
/-- It finds the inverse-square-root-degree column in the array its third window stages. -/
theorem V_inv (c : Dev nD) :
    (V m c main_v22 : (⟨S50000x1, .f32⟩ : BufTy).Contents (Elt Ideal))
      = invCol (F := Ideal) (m ((c : Thread nD τ).loc main_arg1)) (m ((c : Thread nD τ).loc main_arg3)) := by
  dsimp only [Gen.V, Gen.hostOps0]
  after_results_simp <;> rfl

end Cert.KernelIdeal.GcnValue

end
-- ==== Proof.KernelRun.lean ====
/-
  The kernel's run with its result named: after every weakly fair execution the result array holds `gcn` of the
  argument arrays, and the arguments are unchanged.  The result array is the dense layer of the three arrays the region
  finds (the blocks of rows put together), and those are the aggregated sum, the normalised features and the
  inverse-square-root-degree column of the arguments.
-/
import proofs.«107013_j12120397709394_2_alg».proof.Proof.KernelValue
import proofs.«107013_j12120397709394_2_alg».proof.Proof.KernelPrefix

noncomputable section

namespace Cert.KernelIdeal.GcnValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the run, as the layer of the arguments. -/
theorem result (c : Dev nD) :
    (dats m 0 c).arrAt 4 cfg0.N
      = gcn (m ((c : Thread nD τ).loc main_arg0)) (m ((c : Thread nD τ).loc main_arg1)) (m ((c : Thread nD τ).loc main_arg2)) (m ((c : Thread nD τ).loc main_arg3)) (m ((c : Thread nD τ).loc main_arg4)) := by
  refine (final m c).trans ?_
  show Cert.GcnDense.layer (M := 50000) (K := 128) (N := 256)
    (V m c main_v21) (V m c main_v8) (V m c main_v22) (V m c main_arg4) = _
  rw [V_agg m c, V_nrm m c, V_inv m c, V_main_arg4 m c]
  rfl

/-- The run: the result at `gcn` of the arguments, the arguments unchanged. -/
theorem run : θ_run defs (onTc (τ := τ) (main (F := Ideal))) ⟨m, fun _ => 0, ρ⟩ fun r => ∀ c : Dev nD,
      r.2.mem ((c : Thread nD τ).loc main_v23)
        = gcn (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result m c), (h c).2⟩) (Value.run_blocks m ρ)

end Cert.KernelIdeal.GcnValue

end
-- ==== Proof.RefValue.lean ====
/-
  The reference's result as the same function of the arguments as the kernel's.

  The reference computes the three arrays the kernel's region is handed — the aggregated neighbour sum, the normalised
  features, the inverse-square-root-degree column — by the same host operations, then writes the dense layer the host's
  way: the column broadcast along its rows, the self-loop sum, one `dot_general` over all 50000 rows, and `relu`.  That is
  `Cert.GcnDense.layer` of the three arrays and the weights (`host_form`), which is `gcn` of the arguments.
-/
import proofs.«107013_j12120397709394_2_alg».proof.Proof.Gen.ReferenceIdeal.Run
import proofs.«107013_j12120397709394_2_alg».proof.Proof.KernelPrefix

noncomputable section

namespace Cert.ReferenceIdeal.GcnRef

open Cert.ReferenceIdeal Cert.ReferenceIdeal.Gen Idealize.ShloMosaic Idealize.ShloMosaic.TcCoe Idealize.SL.Sem

/-- The reference's product carries the dimension numbers of a plain matrix product. -/
theorem plain : MatmulPlain.IsPlain (M := 50000) (K := 128) (N := 256) dot_S50000x128_S128x256_S50000x256_1_0_0_1_n_n :=
  ⟨rfl, rfl, rfl, rfl, rfl, rfl⟩

/-- The composed term of the reference's host operations, over any argument arrays, is the layer `gcn` of them. -/
theorem result_eq (a0 : FVec Ideal S50000x128 .f32) (a1 a2 : IVec S800000 32) (a3 : FVec Ideal S800000 .f32)
    (a4 : FVec Ideal S128x256 .f32) :
    maximumf (F := Ideal) (Host.dotGeneral (F := Ideal) dot_S50000x128_S128x256_S50000x256_1_0_0_1_n_n none (addf (F := Ideal) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 a1) (mulf (F := Ideal) (broadcastInDim S800000x128 ![0, 1] bcast_S800000x1_S800000x128_0_1 (broadcastInDim S800000x1 ![0] bcast_S800000_S800000x1_0 a3)) (Host.gather gather_S50000x128_S800000x1_S800000x128_1_0_n_n_0_1_1128 (mulf (F := Ideal) (broadcastInDim S50000x128 ![0, 1] bcast_S50000x1_S50000x128_0_1 (broadcastInDim S50000x1 ![0] bcast_S50000_S50000x1_0 (Host.rsqrt (F := Ideal) (addf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 a1) a3) (broadcastInDim S50000 ![] bcast_S_S50000 (constant (F := Ideal) S_ .f32 0x3F800000#32)))))) a0) (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2))))) (mulf (F := Ideal) (broadcastInDim S50000x128 ![0, 1] bcast_S50000x1_S50000x128_0_1 (broadcastInDim S50000x1 ![0] bcast_S50000_S50000x1_0 (Host.rsqrt (F := Ideal) (addf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 a1) a3) (broadcastInDim S50000 ![] bcast_S_S50000 (constant (F := Ideal) S_ .f32 0x3F800000#32)))))) (mulf (F := Ideal) (broadcastInDim S50000x128 ![0, 1] bcast_S50000x1_S50000x128_0_1 (broadcastInDim S50000x1 ![0] bcast_S50000_S50000x1_0 (Host.rsqrt (F := Ideal) (addf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 a1) a3) (broadcastInDim S50000 ![] bcast_S_S50000 (constant (F := Ideal) S_ .f32 0x3F800000#32)))))) a0))) a4) (broadcastInDim S50000x256 ![] bcast_S_S50000x256 (constant (F := Ideal) S_ .f32 0x00000000#32))
      = Cert.KernelIdeal.GcnValue.gcn a0 a1 a2 a3 a4 := by
  refine (Cert.GcnDense.host_form (M := 50000) (K := 128) (N := 256) plain _ _ _ _ _ _).trans ?_
  rfl

end Cert.ReferenceIdeal.GcnRef

end
-- ==== Proof.lean ====
/-
  One graph-convolution layer over 50000 nodes, 800000 weighted edges, 128 features and 256 units, computed two ways
  that agree entry by entry over the extended reals.

  Both programs first compute, by the same host operations, the inverse square root of every node's in-degree (the
  edge values scatter-added by row, plus one for the self loop), the features scaled row by row by it, and the
  aggregated neighbour sum (normalised rows gathered by edge column, scaled by the edge values, scatter-added by edge
  row).  The kernel then closes the pooled sum with the self loop, `agg + inv · nrm`, multiplies by the weights and
  rectifies inside one region, 2000 rows per grid point, with both product operands rounded to a narrower float
  format; the reference does the same on the whole arrays with one `dot_general` and `relu`.  Over the extended reals
  the rounding is the identity, a product into a zero block and a `dot_general` are the same sum of products, and an
  entry of the layer needs only its own row of the row-indexed arrays, so 25 blocks of 2000 rows of the kernel's
  result are the reference's result.  No law of arithmetic beyond reading the two spellings is used, so the finiteness
  of the inputs is never needed.

  The three frame claims are the generated frame certificates (the reference's is its generated run with the result
  dropped); the idealisation rewrote no operation, so `preserves` is `True`.
-/
import proofs.«107013_j12120397709394_2_alg».proof.Defs
import proofs.«107013_j12120397709394_2_alg».proof.Proof.Gen.Kernel
import proofs.«107013_j12120397709394_2_alg».proof.Proof.Gen.Kernel.Frame
import proofs.«107013_j12120397709394_2_alg».proof.Proof.Gen.KernelIdeal
import proofs.«107013_j12120397709394_2_alg».proof.Proof.Gen.KernelIdeal.Frame
import proofs.«107013_j12120397709394_2_alg».proof.Proof.Gen.KernelIdeal.Value
import proofs.«107013_j12120397709394_2_alg».proof.Proof.Gen.ReferenceIdeal
import proofs.«107013_j12120397709394_2_alg».proof.Proof.Gen.ReferenceIdeal.Run
import proofs.«107013_j12120397709394_2_alg».proof.Proof.Gen.Pre_finite_inputs
import proofs.«107013_j12120397709394_2_alg».proof.Proof.KernelRun
import proofs.«107013_j12120397709394_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the layer `gcn` of the arguments in their
    result arrays: the kernel's blocks of rows put together, and the reference's whole-array spelling. -/
theorem algebraic : Cert.algebraic_KernelIdeal_ReferenceIdeal := by
  intro m ρ m' ρ' _ hagree
  refine ⟨fun c => Cert.KernelIdeal.GcnValue.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.GcnRef.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
